-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S4000x128 : Shape := ⟨2, ![4000, 128]⟩
abbrev S4000x256 : Shape := ⟨2, ![4000, 256]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x256, .f32⟩
  | .local _ .vmem, ⟨9, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  concatenates_S4000x128_S4000x128_S4000x256_d1 : Shape.Concatenates [S4000x128, S4000x128] S4000x256 1
  inb_S4000x256_S4000x256_0_0 : ∀ a, (![0, 0] : Fin 2 → Nat) a + S4000x256.size a ≤ S4000x256.size a
  h_S4000x256 : 0 < S4000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .f32 = 32 ∨ (Rect.block (s := S100000x256) S4000x256.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x256, .f32⟩
  | .hbm, ⟨33, _⟩ => ⟨S_, .f32⟩
  | .hbm, ⟨34, _⟩ => ⟨S100000x256, .f32⟩
  | .hbm, ⟨35, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S_S100000x256 : S_.BroadcastsInDim S100000x256 (![] : Fin 0 → Fin S100000x256.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Layer.lean ====
/-
  The dense half of one neighbourhood-aggregation layer, as a function of its arrays.

  A node r carries a feature row x[r, ·] and an aggregated neighbour row a[r, ·], both of 128 entries. The
  layer sends each row through its own affine map and lays the two images side by side, clipped below at zero:

      out[r, q]       = max (Σ_k x[r, k] · Wl[k, q] + bl[q]) 0        (q < 128)
      out[r, 128 + q] = max (Σ_k a[r, k] · Wn[k, q] + bn[q]) 0        (q < 128)

  over the extended reals. An entry of the output depends on ONE row of x or of a, on one column of a weight matrix
  and on one bias entry; the function is therefore the same whatever the number n of rows, and a block of rows of
  the output is the function of the matching blocks of rows of x and a. The sums are finite sums in the
  commutative monoid of the extended reals, so no finiteness of the entries is needed anywhere.
-/
import Idealize.ShloMosaic.PureOps.Ideal
import Idealize.ShloMosaic.Lib.ValueIdx

noncomputable section

open scoped BigOperators

namespace Cert.Layer

open Idealize.ShloMosaic Idealize.ShloMosaic.ValueIdx

/-- A weight matrix's index set and a bias vector's. -/
abbrev Wts : Shape := ⟨2, ![128, 128]⟩
abbrev Bias : Shape := ⟨1, ![128]⟩

/-- The float zero the clip compares with, kept as its word (the same word on both sides of every equation below). -/
abbrev zero : EReal := Ideal.ofBits .f32 0x00000000#32

/-- One affine image of a row `v`: `Σ_k v k · W[k, q] + b[q]`. -/
def affine (v : Fin 128 → EReal) (W : Wts.Idx → EReal) (b : Bias.Idx → EReal) (q : Fin 128) : EReal :=
  (∑ k : Fin 128, v k * W (ix2 k q)) + b (ix1 q)

/-- Entry `q` of an output row, from the node's own row `v` and its neighbours' row `a`: the first 128 entries are
    the clipped affine image of `v`, the last 128 the clipped affine image of `a`. -/
def entry (v a : Fin 128 → EReal) (Wl : Wts.Idx → EReal) (bl : Bias.Idx → EReal) (Wn : Wts.Idx → EReal)
    (bn : Bias.Idx → EReal) (q : Fin 256) : EReal :=
  max (if h : q.val < 128 then affine v Wl bl ⟨q.val, h⟩
       else affine a Wn bn ⟨q.val - 128, by have := q.isLt; omega⟩) zero

/-- The layer on `n` nodes: row by row, `entry` of the node's two rows. -/
def layer {n : Nat} (x a : (⟨2, ![n, 128]⟩ : Shape).Idx → EReal) (Wl : Wts.Idx → EReal) (bl : Bias.Idx → EReal)
    (Wn : Wts.Idx → EReal) (bn : Bias.Idx → EReal) : (⟨2, ![n, 256]⟩ : Shape).Idx → EReal :=
  fun i => entry (fun k => x (ix2 ⟨(i 0).val, idx2_lt0 i⟩ k)) (fun k => a (ix2 ⟨(i 0).val, idx2_lt0 i⟩ k))
    Wl bl Wn bn ⟨(i 1).val, idx2_lt1 i⟩

/-- At the index (r, q) the layer is `entry` of rows r. -/
theorem layer_apply {n : Nat} (x a : (⟨2, ![n, 128]⟩ : Shape).Idx → EReal) (Wl : Wts.Idx → EReal) (bl : Bias.Idx → EReal)
    (Wn : Wts.Idx → EReal) (bn : Bias.Idx → EReal) (r : Fin n) (q : Fin 256) :
    layer x a Wl bl Wn bn (ix2 r q) = entry (fun k => x (ix2 r k)) (fun k => a (ix2 r k)) Wl bl Wn bn q := rfl

/-- A block of rows of the layer's output is the layer of the blocks of rows: if row `p` of `xb`, `ab` is row `R` of
    `X`, `A`, then entry (p, q) of the layer of the blocks is entry (R, q) of the layer of the arrays. -/
theorem layer_rows {n N : Nat} (xb ab : (⟨2, ![n, 128]⟩ : Shape).Idx → EReal) (X A : (⟨2, ![N, 128]⟩ : Shape).Idx → EReal)
    (Wl : Wts.Idx → EReal) (bl : Bias.Idx → EReal) (Wn : Wts.Idx → EReal) (bn : Bias.Idx → EReal)
    (p : Fin n) (R : Fin N) (q : Fin 256)
    (hx : ∀ k : Fin 128, xb (ix2 p k) = X (ix2 R k)) (ha : ∀ k : Fin 128, ab (ix2 p k) = A (ix2 R k)) :
    layer xb ab Wl bl Wn bn (ix2 p q) = layer X A Wl bl Wn bn (ix2 R q) := by
  rw [layer_apply, layer_apply, funext hx, funext ha]

end Cert.Layer

end
-- ==== Proof.Blocks.lean ====
/-
  The blocks the grid stages, read off the arrays.

  The grid has 25 points. At point t the row-blocked arrays — x, the aggregated array a, the output — are at their block
  t of 4000 rows, and the weight matrices and biases at their one block. So row p of point t's block of x (of a) is
  row 4000·t + p of x (of a), and the staged weights and biases are the arrays themselves.
-/
import proofs.«133154_j57973468561934_2_alg».proof.Proof.Gen.KernelIdeal.Value
import proofs.«133154_j57973468561934_2_alg».proof.Proof.Layer
import Idealize.ShloMosaic.Lib.Pipeline.Value
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The index maps over the 25 grid points: the row-blocked arrays (x, a, the output) are at block (t, 0) at point t, the
    weights and biases at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The input blocks, read off the arrays -/

/-- Row p of point t's block of x is row 4000·t + p of x. -/
theorem xblk_apply (c : Dev nD) (t : Fin cfg0.N) (p : Fin 4000) (k : Fin 128) (R : Fin 100000)
    (hR : R.val = 4000 * t.val + p.val) :
    (iblk m c 0 t : Vec Ideal S4000x128 .f32) (ix2 p k) = (V m c main_arg0 : S100000x128.Idx → EReal) (ix2 R k) := by
  obtain ⟨e0, e1, -⟩ := idx_facts t
  unfold iblk
  rw [View.read_apply]
  show V m c main_arg0 _ = V m c main_arg0 _
  refine congrArg (V m c main_arg0 : S100000x128.Idx → EReal) (funext fun a => Fin.ext ?_)
  match a with
  | ⟨0, _⟩ => show win0_0.index t (0 : Fin 2) * 4000 + 1 * p.val = R.val; rw [e0, hR]; omega
  | ⟨1, _⟩ => show win0_0.index t (1 : Fin 2) * 128 + 1 * k.val = k.val; rw [e1]; omega

/-- Row p of point t's block of any array laid out as the aggregated array is, is the array's row 4000·t + p: a fact
    about the layout only, true of every array. -/
theorem rows1_read (A : S100000x128.Idx → EReal) (t : Fin cfg0.N) (p : Fin 4000) (k : Fin 128) (R : Fin 100000)
    (hR : R.val = 4000 * t.val + p.val) :
    ((cfg0.win 1).blk t).view.read (Elt Ideal) A (ix2 p k) = A (ix2 R k) := by
  obtain ⟨-, -, e0, e1, -⟩ := idx_facts t
  rw [View.read_apply]
  refine congrArg A (funext fun a => Fin.ext ?_)
  match a with
  | ⟨0, _⟩ => show win0_1.index t (0 : Fin 2) * 4000 + 1 * p.val = R.val; rw [e0, hR]; omega
  | ⟨1, _⟩ => show win0_1.index t (1 : Fin 2) * 128 + 1 * k.val = k.val; rw [e1]; omega

/-- Row p of point t's block of the aggregated array is its row 4000·t + p. -/
theorem ablk_apply (c : Dev nD) (t : Fin cfg0.N) (p : Fin 4000) (k : Fin 128) (R : Fin 100000)
    (hR : R.val = 4000 * t.val + p.val) :
    (iblk m c 1 t : Vec Ideal S4000x128 .f32) (ix2 p k) = (V m c main_v12 : S100000x128.Idx → EReal) (ix2 R k) := by
  unfold iblk
  exact rows1_read (V m c main_v12) t p k R hR

/-- The one block of the first weight matrix is the matrix. -/
theorem wlblk_eq (c : Dev nD) (t : Fin cfg0.N) :
    (iblk m c 2 t : Vec Ideal S128x128 .f32) = (V m c main_arg4 : S128x128.Idx → EReal) := by
  obtain ⟨-, -, -, -, e0, e1, -⟩ := idx_facts t
  unfold iblk
  funext j
  rw [View.read_apply]
  show V m c main_arg4 _ = V m c main_arg4 j
  refine congrArg (V m c main_arg4 : S128x128.Idx → EReal) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The one block of the first bias is the bias. -/
theorem blblk_eq (c : Dev nD) (t : Fin cfg0.N) :
    (iblk m c 3 t : Vec Ideal S128 .f32) = (V m c main_arg5 : S128.Idx → EReal) := by
  obtain ⟨-, -, -, -, -, -, e0, -⟩ := idx_facts t
  unfold iblk
  funext j
  rw [View.read_apply]
  show V m c main_arg5 _ = V m c main_arg5 j
  refine congrArg (V m c main_arg5 : S128.Idx → EReal) (funext fun a => Fin.ext ?_)
  match a with
  | ⟨0, _⟩ => show win0_3.index t (0 : Fin 1) * 128 + 1 * (j 0).val = (j 0).val; rw [e0]; omega

/-- The one block of the second weight matrix is the matrix. -/
theorem wnblk_eq (c : Dev nD) (t : Fin cfg0.N) :
    (iblk m c 4 t : Vec Ideal S128x128 .f32) = (V m c main_arg6 : S128x128.Idx → EReal) := by
  obtain ⟨-, -, -, -, -, -, -, e0, e1, -⟩ := idx_facts t
  unfold iblk
  funext j
  rw [View.read_apply]
  show V m c main_arg6 _ = V m c main_arg6 j
  refine congrArg (V m c main_arg6 : S128x128.Idx → EReal) (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- The one block of the second bias is the bias. -/
theorem bnblk_eq (c : Dev nD) (t : Fin cfg0.N) :
    (iblk m c 5 t : Vec Ideal S128 .f32) = (V m c main_arg7 : S128.Idx → EReal) := by
  obtain ⟨-, -, -, -, -, -, -, -, -, e0, -⟩ := idx_facts t
  unfold iblk
  funext j
  rw [View.read_apply]
  show V m c main_arg7 _ = V m c main_arg7 j
  refine congrArg (V m c main_arg7 : S128.Idx → EReal) (funext fun a => Fin.ext ?_)
  match a with
  | ⟨0, _⟩ => show win0_5.index t (0 : Fin 1) * 128 + 1 * (j 0).val = (j 0).val; rw [e0]; omega

end Cert.KernelIdeal.Whole

end
-- ==== Proof.LibJoinColumns.lean ====
/-
  Two matrices of the same number of rows laid side by side, read at an entry.

  Joining an [n, c₁] matrix and an [n, c₂] matrix along the column axis gives an [n, c₁ + c₂] matrix whose entry
  (r, q) is the first matrix's entry (r, q) when q < c₁ and the second's entry (r, q − c₁) otherwise. This is the
  two-piece concatenation read at an index given by its coordinates, with the case split on the column written out.
-/
import Idealize.ShloMosaic.Lib.Pipeline.Value
import Idealize.ShloMosaic.Lib.ValueIdx

namespace Idealize.ShloMosaic.ValueIdx

open Idealize.ShloMosaic

/-- Entry (r, q) of two matrices joined along their columns: the left matrix's entry when the column falls in it, else
    the right matrix's entry at the column less the left width. -/
theorem concatenate_columns_apply {α : Type} {n c₁ c₂ c : Nat} (hc : c = c₁ + c₂)
    (x₁ : (⟨2, ![n, c₁]⟩ : Shape).Idx → α) (x₂ : (⟨2, ![n, c₂]⟩ : Shape).Idx → α)
    (h : Shape.Concatenates [(⟨2, ![n, c₁]⟩ : Shape), ⟨2, ![n, c₂]⟩] ⟨2, ![n, c]⟩ 1) (r : Fin n) (q : Fin c) :
    concatenate ⟨2, ![n, c]⟩ 1 [⟨⟨2, ![n, c₁]⟩, x₁⟩, ⟨⟨2, ![n, c₂]⟩, x₂⟩] h (ix2 r q)
      = if hq : q.val < c₁ then x₁ (ix2 r ⟨q.val, hq⟩)
        else x₂ (ix2 r ⟨q.val - c₁, by have := q.isLt; omega⟩) := by
  by_cases hq : q.val < c₁
  · rw [dif_pos hq]
    exact concatenate_pair_apply_left 1 x₁ x₂ h (ix2 r q) rfl (ix2 r ⟨q.val, hq⟩)
      (fun b => by match b with | ⟨0, _⟩ => rfl | ⟨1, _⟩ => rfl)
  · rw [dif_neg hq]
    exact concatenate_pair_apply_right 1 x₁ x₂ h (ix2 r q) rfl rfl (ix2 r ⟨q.val - c₁, by have := q.isLt; omega⟩)
      (fun b hb => by match b with | ⟨0, _⟩ => rfl | ⟨1, _⟩ => exact absurd rfl hb)
      (by show (q.val - c₁) + c₁ = q.val; omega)

end Idealize.ShloMosaic.ValueIdx
-- ==== Proof.BodyLayer.lean ====
/-
  What the kernel body computes from the blocks it loads, entry by entry.

  The body loads a block of 4000 rows of x and of the aggregated rows a, the two whole weight matrices and the two
  biases; it multiplies each block of rows by its matrix into a zero accumulator, adds the bias laid along every row,
  joins the two [4000, 128] products side by side and clips below at zero. Over the extended reals a change of float
  format is the identity and a product accumulated into zero is the plain sum over the contraction index, so entry
  (p, q) of the stored block is `Layer.entry` of row p of the x block and row p of the a block: the block is the layer
  on 4000 nodes.
-/
import proofs.«133154_j57973468561934_2_alg».proof.Proof.Gen.KernelIdeal.Skeleton
import proofs.«133154_j57973468561934_2_alg».proof.Proof.Layer
import proofs.«133154_j57973468561934_2_alg».proof.Proof.LibJoinColumns
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Layer

/-- The matrix product's dimension numbers: rows of the left operand against columns of the right, one contracted axis. -/
abbrev D : DotDims S4000x128 S128x128 S4000x128 := dot_S4000x128_S128x128_S4000x128_1_0_0_1_n_n

/-- The left operand's row coordinate is the output's. -/
theorem lhs_row (i : S4000x128.Idx) (κ : D.contr.Idx) : (D.lhsIdx i κ 0).val = (i 0).val := by
  unfold DotDims.lhsIdx
  rw [dif_neg (show ¬(0 : Fin S4000x128.rank) ∈ D.lhsBatch by decide),
    dif_pos (show (0 : Fin S4000x128.rank) ∈ D.lhsNonContracting by decide)]
  rfl

/-- The right operand's column coordinate is the output's. -/
theorem rhs_col (i : S4000x128.Idx) (κ : D.contr.Idx) : (D.rhsIdx i κ 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- A block of rows times a matrix, accumulated into zero, at (p, q): the sum over k of row p's entry k times the
    matrix's entry (k, q). -/
theorem matmul_row {φ₁ φ₂ : FTy} (l : FVec Ideal S4000x128 φ₁) (w : FVec Ideal S128x128 φ₂) (p : Fin 4000) (q : Fin 128) :
    matmul D none l w (constant (F := Ideal) S4000x128 .f32 0x00000000#32) (ix2 p q)
      = ∑ k : Fin 128, l (ix2 p k) * w (ix2 k q) := by
  show FloatOps.matmul D none l w (constant (F := Ideal) S4000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]

/-- A bias vector cast to one row and laid along every row reads, at (p, q), its entry q. -/
theorem bias_row (b : Vec Ideal S128 .f32) (h1 : S128.ShapeCasts S1x128) (h2 : S1x128.Broadcasts S4000x128)
    (p : Fin 4000) (q : Fin 128) :
    broadcastTo S4000x128 (shapeCast S1x128 b h1) h2 (ix2 p q) = b (ix1 q) :=
  (broadcastTo_1b_ab_apply (shapeCast S1x128 b h1) h2 p q).trans (shapeCast_a_1a_apply b h1 0 q)

/-- One half of the body: a block of rows through its affine map, at (p, q). -/
theorem half_apply (v : Vec Ideal S4000x128 .f32) (W : Vec Ideal S128x128 .f32) (b : Vec Ideal S128 .f32)
    (h1 : S128.ShapeCasts S1x128) (h2 : S1x128.Broadcasts S4000x128) (p : Fin 4000) (q : Fin 128) :
    addf (matmul D none (truncf .bf16 v bitsLt_bf16_f32) (truncf .bf16 W bitsLt_bf16_f32)
        (constant (F := Ideal) S4000x128 .f32 0x00000000#32)) (broadcastTo S4000x128 (shapeCast S1x128 b h1) h2) (ix2 p q)
      = affine (fun k => v (ix2 p k)) W b q :=
  congrArg₂ (· + ·) (matmul_row (truncf .bf16 v bitsLt_bf16_f32) (truncf .bf16 W bitsLt_bf16_f32) p q) (bias_row b h1 h2 p q)

/-- THE BODY'S STORED BLOCK at (p, q) is the layer's entry q of row p of the two loaded blocks of rows. -/
theorem payload_apply (v0 v2 : Vec Ideal S4000x128 .f32) (v5 v7 : Vec Ideal S128x128 .f32) (v10 v15 : Vec Ideal S128 .f32)
    (p : Fin 4000) (q : Fin 256) :
    k0_pay1 (F := Ideal) v0 v2 v5 v7 v10 v15 (ix2 p q)
      = entry (fun k => v0 (ix2 p k)) (fun k => v2 (ix2 p k)) v5 v10 v7 v15 q := by
  unfold k0_pay1 entry
  refine congrArg (max · zero) ?_
  refine (concatenate_columns_apply (c₁ := 128) (c₂ := 128) rfl _ _ _ p q).trans ?_
  by_cases hq : q.val < 128
  · rw [dif_pos hq, dif_pos hq]
    exact half_apply v0 v5 v10 _ _ p ⟨q.val, hq⟩
  · rw [dif_neg hq, dif_neg hq]
    have e : shapeCast S4000x128 v2 shapeCasts_S4000x128_S4000x128 = v2 := shapeCast_self v2 _
    rw [e]
    exact half_apply v2 v7 v15 _ _ p ⟨q.val - 128, by have := q.isLt; omega⟩

/-- So the stored block is the layer on the block's 4000 rows. -/
theorem payload_eq (v0 v2 : Vec Ideal S4000x128 .f32) (v5 v7 : Vec Ideal S128x128 .f32) (v10 v15 : Vec Ideal S128 .f32) :
    k0_pay1 (F := Ideal) v0 v2 v5 v7 v10 v15 = layer (n := 4000) v0 v2 v5 v10 v7 v15 := by
  funext j
  obtain ⟨p, q, rfl⟩ : ∃ (p : Fin 4000) (q : Fin 256), j = ix2 p q := ⟨j 0, j 1, eq_ix2 j⟩
  rw [payload_apply, layer_apply]

end Cert.KernelIdeal.Body

end
-- ==== Proof.Flushed.lean ====
/-
  From the blocks the grid writes to the whole output array.

  The body's stored block is the layer on the block's 4000 rows (`Body.payload_eq`), and an entry of the layer depends
  on one row of x and of the aggregated array a only, so what point t writes back is block t — rows 4000·t … 4000·t +
  3999 — of the layer on all 100000 rows. Row R lies in the block of point R / 4000, so the 25 blocks cover the
  output, which therefore ends holding the layer of the arrays as the call finds them.
-/
import proofs.«133154_j57973468561934_2_alg».proof.Proof.Blocks
import proofs.«133154_j57973468561934_2_alg».proof.Proof.BodyLayer

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-! ## What a point writes back, and the array the blocks fill -/

/-- The layer of the arrays as the call finds them. -/
abbrev found (c : Dev nD) : S100000x256.Idx → EReal :=
  layer (n := 100000) (V m c main_arg0) (V m c main_v12) (V m c main_arg4) (V m c main_arg5) (V m c main_arg6) (V m c main_arg7)

/-- WHAT POINT t WRITES BACK is block t of the layer of the arrays. -/
theorem flushed_eq (c : Dev nD) (t : Fin cfg0.N) :
    (dats m 0 c).flushed 6 t = ((cfg0.win 6).blk t).view.read (Elt Ideal) (found m c) := by
  have hN : cfg0.N = 25 := N_0
  obtain ⟨-, -, -, -, -, -, -, -, -, -, e0, e1⟩ := idx_facts t
  rw [flushed6]
  unfold out0_6
  rw [View.canon_unit_zero hz2]
  simp only [View.ld_unit_zero (S := S4000x128) hz2, View.ld_unit_zero (S := S128x128) hz2, View.ld_unit_zero (S := S128) hz1]
  rw [Body.payload_eq, wlblk_eq m c t, blblk_eq m c t, wnblk_eq m c t, bnblk_eq m c t]
  funext j
  obtain ⟨p, q, rfl⟩ : ∃ (p : Fin 4000) (q : Fin 256), j = ix2 p q := ⟨j 0, j 1, eq_ix2 j⟩
  have ht : t.val < 25 := hN ▸ t.isLt
  have hemb : ((cfg0.win 6).blk t).view.emb (ix2 p q) = ix2 (⟨4000 * t.val + p.val, by omega⟩ : Fin 100000) q :=
    funext fun a => Fin.ext (by
      match a with
      | ⟨0, _⟩ => show win0_6.index t (0 : Fin 2) * 4000 + 1 * p.val = 4000 * t.val + p.val; rw [e0]; omega
      | ⟨1, _⟩ => show win0_6.index t (1 : Fin 2) * 256 + 1 * q.val = q.val; rw [e1]; omega)
  show layer (n := 4000) (iblk m c 0 t : Vec Ideal S4000x128 .f32) (iblk m c 1 t : Vec Ideal S4000x128 .f32)
      (V m c main_arg4) (V m c main_arg5) (V m c main_arg6) (V m c main_arg7) (ix2 p q)
    = found m c (((cfg0.win 6).blk t).view.emb (ix2 p q))
  rw [hemb]
  exact layer_rows (n := 4000) (N := 100000) (iblk m c 0 t : Vec Ideal S4000x128 .f32) (iblk m c 1 t : Vec Ideal S4000x128 .f32)
    (V m c main_arg0) (V m c main_v12) (V m c main_arg4) (V m c main_arg5) (V m c main_arg6) (V m c main_arg7)
    p (⟨4000 * t.val + p.val, by omega⟩ : Fin 100000) q
    (fun k => xblk_apply m c t p k _ rfl) (fun k => ablk_apply m c t p k _ rfl)

/-- An index of the output is in point t's block iff each coordinate is in the block's range on its axis. -/
theorem mem_blk (t : Fin cfg0.N) (i : S100000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v13).slice (win0_6.rect t)).set ↔ _
  rw [View.set_slice_whole, Rect.mem_set_unit]
  exact Iff.rfl

/-- Every index of the output is in some point's block: row R in the block of point R / 4000. -/
theorem cover (i : S100000x256.Idx) :
    ∃ t : Fin cfg0.N, (cfg0.win 6).flush t = true ∧ i ∈ ((cfg0.win 6).blk t).view.set := by
  have hN : cfg0.N = 25 := N_0
  have h0 : (i 0).val < 100000 := idx2_lt0 i
  have h1 : (i 1).val < 256 := idx2_lt1 i
  have hlt : (i 0).val / 4000 < cfg0.N := by rw [hN]; omega
  obtain ⟨-, -, -, -, -, -, -, -, -, -, e0, e1⟩ := idx_facts ⟨(i 0).val / 4000, hlt⟩
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val ∧ (i 0).val < win0_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hlt⟩ (1 : Fin 2) * 256 ≤ (i 1).val ∧ (i 1).val < win0_6.index ⟨(i 0).val / 4000, hlt⟩ (1 : Fin 2) * 256 + 256
    rw [e1]; omega

/-- THE OUTPUT ARRAY after the run is the layer of the arrays as the call finds them. -/
theorem final (c : Dev nD) : (dats m 0 c).arrAt 6 cfg0.N = found m c :=
  (dats m 0 c).arrAt_eq_of_cover 6 (found m c) (fun t _ => flushed_eq m c t) cover

end Cert.KernelIdeal.Whole

end
-- ==== Proof.Agg.lean ====
/-
  The aggregated neighbour rows the call finds.

  Before the call the program computes, on the host, a[r, ·] = Σ over the edges e with destination r of
  weight(e) · x[source(e), ·]: the source indices wrapped into range, the source rows gathered, each scaled by its
  edge's weight, and the scaled rows scatter-added into a zero array at the destination rows. The array the call's
  second operand stages is that term of the launch contents.
-/
import proofs.«133154_j57973468561934_2_alg».proof.Proof.Gen.KernelIdeal.Frame
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The aggregated array the call finds -/

/-- The aggregated neighbour rows as the operations before the call compute them: into a zero array, at each edge's
    destination row, the sum of the edge's weight times its (wrapped) source row of x. -/
def agg (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x1)
    (mulf (broadcastInDim S1600000x128 ![0, 1] bcast_S1600000x1_S1600000x128_0_1 (broadcastInDim S1600000x1 ![0] bcast_S1600000_S1600000x1_0 x3))
      (Host.gather gather_S100000x128_S1600000x1_S1600000x128_1_0_n_n_0_1_1128 x0
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 100000#32))) x2))))

/-- The call finds the aggregated array at that term of the launch contents. -/
theorem V_agg (c : Dev nD) :
    (V m c main_v12 : (⟨S100000x128, .f32⟩ : BufTy).Contents (Elt Ideal))
      = agg (m ((c : Thread nD τ).loc main_arg0)) (m ((c : Thread nD τ).loc main_arg1)) (m ((c : Thread nD τ).loc main_arg2)) (m ((c : Thread nD τ).loc main_arg3)) := by
  dsimp only [Gen.V, Gen.hostOps0]
  after_results
  rfl

end Cert.KernelIdeal.Whole

end
-- ==== Proof.WholeLayer.lean ====
/-
  The kernel's run, read: the output array is the layer of the launch contents.

  The output ends holding the layer of the arrays as the call finds them (`final`); x, the weights and the biases are
  found as launched, and the aggregated array at its term of the launch contents (`V_agg`).
-/
import proofs.«133154_j57973468561934_2_alg».proof.Proof.Flushed
import proofs.«133154_j57973468561934_2_alg».proof.Proof.Agg

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-- The layer of the launch contents: x, the aggregated array computed from x and the edges, the weights and biases. -/
abbrev result (c : Dev nD) : S100000x256.Idx → EReal :=
  layer (n := 100000) (m ((c : Thread nD τ).loc main_arg0))
    (agg (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6)) (m ((c : Thread nD τ).loc main_arg7))

theorem found_eq (c : Dev nD) : found m c = result m c := by
  unfold found result
  rw [V_agg m c, V_main_arg0 m c, V_main_arg4 m c, V_main_arg5 m c, V_main_arg6 m c, V_main_arg7 m c]

/-- THE RUN: every weakly fair execution ends with the output array at the layer of the launch contents and the
    arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (found_eq m c)), (h c).2⟩)
    (Cert.KernelIdeal.Value.run_blocks m ρ)

end Cert.KernelIdeal.Whole

end
-- ==== Proof.RefLayer.lean ====
/-
  The reference computes the layer.

  The reference multiplies the whole [100000, 128] arrays x and a by their weight matrices, adds each bias laid along
  every row, joins the two images side by side and clips below at zero. Read at an entry (r, q), stage by stage: the
  products are sums over the contraction index of row r against column q, the bias contributes its entry q, the join
  picks the left or right image by the column, the clip is a maximum with the zero word. That is `Layer.entry` of
  rows r of x and a. The aggregated array a (a scatter-add of scaled gathered rows) is carried as it stands.
-/
import proofs.«133154_j57973468561934_2_alg».proof.Proof.Gen.ReferenceIdeal.Read
import proofs.«133154_j57973468561934_2_alg».proof.Proof.Layer
import proofs.«133154_j57973468561934_2_alg».proof.Proof.LibJoinColumns

noncomputable section

open scoped BigOperators

namespace Cert.ReferenceIdeal.RefLayer

open Cert.ReferenceIdeal Cert.ReferenceIdeal.Read Idealize.ShloMosaic Idealize.ShloMosaic.ValueIdx Cert.Layer

/-- The aggregated neighbour rows, as the reference computes them from x, the edge lists and the edge weights. -/
abbrev agg (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) : (⟨S100000x128, .f32⟩ : BufTy).Contents (Elt Ideal) :=
  val_main_v16 (F := Ideal) x0 x1 x2 x3

/-- The node's own image at (r, q): row r of x through the first affine map. -/
theorem own_apply (x0 : (⟨S100000x128, .f32⟩ : BufTy).Contents (Elt Ideal)) (x4 : (⟨S128x128, .f32⟩ : BufTy).Contents (Elt Ideal))
    (x5 : (⟨S128, .f32⟩ : BufTy).Contents (Elt Ideal)) (r : Fin 100000) (q : Fin 128) :
    val_main_v3 (F := Ideal) x0 x4 x5 (ix2 r q) = affine (fun k => x0 (ix2 r k)) x4 x5 q := by
  have el : ∀ k : Fin 128, lidx_main_v0 (ix2 r q) k = ix2 r k := fun k => funext fun a => Fin.ext (by
    match a with | ⟨0, _⟩ => rfl | ⟨1, _⟩ => rfl)
  have er : ∀ k : Fin 128, ridx_main_v0 (ix2 r q) k = ix2 k q := fun k => funext fun a => Fin.ext (by
    match a with | ⟨0, _⟩ => rfl | ⟨1, _⟩ => rfl)
  have eb : idx_main_v1 (idx_main_v2 (ix2 r q)) = ix1 q := funext fun a => Fin.ext (by
    match a with | ⟨0, _⟩ => rfl)
  rw [val_main_v3_apply, val_main_v0_apply, val_main_v2_apply, val_main_v1_apply, eb]
  simp only [el, er]
  rfl

/-- The neighbours' image at (r, q): row r of the aggregated array through the second affine map. -/
theorem neigh_apply (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x6 : (⟨S128x128, .f32⟩ : BufTy).Contents (Elt Ideal))
    (x7 : (⟨S128, .f32⟩ : BufTy).Contents (Elt Ideal)) (r : Fin 100000) (q : Fin 128) :
    val_main_v20 (F := Ideal) x0 x1 x2 x3 x6 x7 (ix2 r q) = affine (fun k => agg x0 x1 x2 x3 (ix2 r k)) x6 x7 q := by
  have el : ∀ k : Fin 128, lidx_main_v17 (ix2 r q) k = ix2 r k := fun k => funext fun a => Fin.ext (by
    match a with | ⟨0, _⟩ => rfl | ⟨1, _⟩ => rfl)
  have er : ∀ k : Fin 128, ridx_main_v17 (ix2 r q) k = ix2 k q := fun k => funext fun a => Fin.ext (by
    match a with | ⟨0, _⟩ => rfl | ⟨1, _⟩ => rfl)
  have eb : idx_main_v18 (idx_main_v19 (ix2 r q)) = ix1 q := funext fun a => Fin.ext (by
    match a with | ⟨0, _⟩ => rfl)
  rw [val_main_v20_apply, val_main_v17_apply, val_main_v19_apply, val_main_v18_apply, eb]
  simp only [el, er]
  rfl

/-- THE REFERENCE'S RESULT is the layer on the 100000 nodes, of x, the aggregated array, the weights and the biases. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v22 (F := Ideal) x0 x1 x2 x3 x4 x5 x6 x7 = layer (n := 100000) x0 (agg x0 x1 x2 x3) x4 x5 x6 x7 := by
  funext i
  obtain ⟨r, q, rfl⟩ : ∃ (r : Fin 100000) (q : Fin 256), i = ix2 r q := ⟨i 0, i 1, eq_ix2 i⟩
  rw [val_main_v22_apply, val_main_call0_v0_apply, val_main_call0_cst_apply, layer_apply]
  unfold entry
  refine congrArg (max · zero) ?_
  unfold val_main_v21
  refine (concatenate_columns_apply (c₁ := 128) (c₂ := 128) rfl _ _ _ r q).trans ?_
  by_cases hq : q.val < 128
  · rw [dif_pos hq, dif_pos hq]
    exact own_apply x0 x4 x5 r ⟨q.val, hq⟩
  · rw [dif_neg hq, dif_neg hq]
    exact neigh_apply x0 x1 x2 x3 x6 x7 r ⟨q.val - 128, by have := q.isLt; omega⟩

end Cert.ReferenceIdeal.RefLayer

end
-- ==== Proof.lean ====
/-
  The kernel and its reference compute one function: the dense half of a neighbourhood-aggregation layer,

      out = max ([x · Wl + bl | a · Wn + bn]) 0,      a = Σ over edges (dst ← src) of weight · x[src],

  on 100000 nodes with 128 features. Both programs compute the aggregated array a by the same operations on the
  host (a gather of source rows, a scaling by the edge weights, a scatter-add into zeros). The kernel then computes
  the layer 4000 rows at a time, with the operands of its two matrix products rounded to a shorter float format and
  the products accumulated into zero; the reference computes it on the whole arrays at once. Over the extended reals a
  change of format is the identity and a product accumulated into zero is the plain sum, so every stored block is the
  layer of its rows (`Body.payload_eq`); an output entry depends on one row of x and a, so the 25 blocks are the blocks
  of the layer of the whole arrays and fill the output (`Whole.final`, `Whole.run`); and the reference's stages, read
  at an entry, are the same sums, bias and clip (`RefLayer.result_eq`). Both sides are the same finite sums of the same
  products, up to naming the contraction index by its one coordinate (a bijection of the index set) and dropping the
  zero the kernel's products start from; neither step needs the entries finite, so the precondition (finite inputs)
  is never opened.

  The three frames are the programs' runs with the result dropped; the idealization rewrote nothing, so the
  kernel's idealized text is its own text read over the extended reals.
-/
import proofs.«133154_j57973468561934_2_alg».proof.Defs
import proofs.«133154_j57973468561934_2_alg».proof.Proof.Gen.Kernel
import proofs.«133154_j57973468561934_2_alg».proof.Proof.Gen.Kernel.Skeleton
import proofs.«133154_j57973468561934_2_alg».proof.Proof.Gen.Kernel.Launch
import proofs.«133154_j57973468561934_2_alg».proof.Proof.Gen.Kernel.Points
import proofs.«133154_j57973468561934_2_alg».proof.Proof.Gen.Kernel.Frame
import proofs.«133154_j57973468561934_2_alg».proof.Proof.Gen.KernelIdeal
import proofs.«133154_j57973468561934_2_alg».proof.Proof.Gen.KernelIdeal.Skeleton
import proofs.«133154_j57973468561934_2_alg».proof.Proof.Gen.KernelIdeal.Launch
import proofs.«133154_j57973468561934_2_alg».proof.Proof.Gen.KernelIdeal.Points
import proofs.«133154_j57973468561934_2_alg».proof.Proof.Gen.KernelIdeal.Frame
import proofs.«133154_j57973468561934_2_alg».proof.Proof.Gen.ReferenceIdeal
import proofs.«133154_j57973468561934_2_alg».proof.Proof.Gen.Pre_finite_inputs
import proofs.«133154_j57973468561934_2_alg».proof.Proof.Gen.KernelIdeal.Value
import proofs.«133154_j57973468561934_2_alg».proof.Proof.Gen.ReferenceIdeal.Run
import proofs.«133154_j57973468561934_2_alg».proof.Proof.Gen.ReferenceIdeal.Read
import proofs.«133154_j57973468561934_2_alg».proof.Proof.WholeLayer
import proofs.«133154_j57973468561934_2_alg».proof.Proof.RefLayer
import Idealize.ShloMosaic.Adequacy
import Idealize.ShloMosaic.Init

noncomputable section

namespace Cert.Proof

open Idealize.ShloMosaic Idealize.SL.Sem

/-- The kernel's program, as printed, runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs compute the aggregated array by the same operations: one term. -/
theorem agg_same (x0 : (⟨Cert.KernelIdeal.S100000x128, .f32⟩ : BufTy).Contents (Elt Ideal))
    (x1 x2 : (⟨Cert.KernelIdeal.S1600000, .i32⟩ : BufTy).Contents (Elt Ideal))
    (x3 : (⟨Cert.KernelIdeal.S1600000, .f32⟩ : BufTy).Contents (Elt Ideal)) :
    Cert.ReferenceIdeal.RefLayer.agg x0 x1 x2 x3 = Cert.KernelIdeal.Whole.agg x0 x1 x2 x3 := rfl

/-- From memories agreeing on the arguments the kernel's output array and the reference's result are both the layer of
    the launch contents. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v22_eq, Cert.ReferenceIdeal.RefLayer.result_eq, e0, e1, e2, e3, e4, e5, e6, e7,
    agg_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
